-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S100000x512 .f32) (main_arg1 : IVec S2x3200000 32) (main_arg2 : FVec F S3200000 .f32) (main_arg3 : FVec F S512x16 .f32) (main_arg4 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S5000x512 : Shape := ⟨2, ![5000, 512]⟩
abbrev S5000x1 : Shape := ⟨2, ![5000, 1]⟩
abbrev S5000x16 : Shape := ⟨2, ![5000, 16]⟩
abbrev S3300000x16 : Shape := ⟨2, ![3300000, 16]⟩
abbrev S1x16 : Shape := ⟨2, ![1, 16]⟩

abbrev nBuf : Space → Nat
  | .hbm => 54
  | .vmem => 7
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S100000, .i32⟩
  | .hbm, ⟨10, _⟩ => ⟨S3300000, .i32⟩
  | .hbm, ⟨11, _⟩ => ⟨S3300000, .i32⟩
  | .hbm, ⟨12, _⟩ => ⟨S_, .f32⟩
  | .hbm, ⟨13, _⟩ => ⟨S100000, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x16, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000x16, .f32⟩
  | .hbm, ⟨41, _⟩ => ⟨S3300000x1, .f32⟩
  | .hbm, ⟨42, _⟩ => ⟨S3300000x16, .f32⟩
  | .hbm, ⟨43, _⟩ => ⟨S3300000x16, .f32⟩
  | .hbm, ⟨44, _⟩ => ⟨S_, .f32⟩
  | .hbm, ⟨45, _⟩ => ⟨S100000x16, .f32⟩
  | .hbm, ⟨46, _⟩ => ⟨S3300000x1, .i32⟩
  | .hbm, ⟨47, _⟩ => ⟨S100000x16, .f32⟩
  | .hbm, ⟨48, _⟩ => ⟨S100000x1, .f32⟩
  | .hbm, ⟨49, _⟩ => ⟨S100000x16, .f32⟩
  | .hbm, ⟨50, _⟩ => ⟨S100000x16, .f32⟩
  | .hbm, ⟨51, _⟩ => ⟨S1x16, .f32⟩
  | .hbm, ⟨52, _⟩ => ⟨S100000x16, .f32⟩
  | .hbm, ⟨53, _⟩ => ⟨S100000x16, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩

abbrev nBuf : Space → Nat
  | .hbm => 70
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S100000, .i32⟩
  | .hbm, ⟨10, _⟩ => ⟨S3300000, .i32⟩
  | .hbm, ⟨11, _⟩ => ⟨S3300000, .i32⟩
  | .hbm, ⟨12, _⟩ => ⟨S_, .f32⟩
  | .hbm, ⟨13, _⟩ => ⟨S100000, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000x16, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x1, .f32⟩
  | .hbm, ⟨61, _⟩ => ⟨S3300000x16, .f32⟩
  | .hbm, ⟨62, _⟩ => ⟨S3300000x16, .f32⟩
  | .hbm, ⟨63, _⟩ => ⟨S_, .f32⟩
  | .hbm, ⟨64, _⟩ => ⟨S100000x16, .f32⟩
  | .hbm, ⟨65, _⟩ => ⟨S3300000x1, .i32⟩
  | .hbm, ⟨66, _⟩ => ⟨S100000x16, .f32⟩
  | .hbm, ⟨67, _⟩ => ⟨S1x16, .f32⟩
  | .hbm, ⟨68, _⟩ => ⟨S100000x16, .f32⟩
  | .hbm, ⟨69, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.LibDot.lean ====
/-
  Two reads at an index, for tables of any size.

  A matrix product. A product of an m × n table with an n × p table, as the dimension records of this certificate
  describe it (rows free on the left, columns free on the right, one contracted axis, no batch axis), sums over the
  positions of the contracted axis; entry (a, b) is  Σ_k l(a, k) · r(k, b)  with k running over `Fin n`. The sum
  over the record's own contraction index type is carried to `Fin n` along the bijection that reads its one
  coordinate.

  A vector along the rows. A vector b of n entries laid along each of m rows has entry b(j) at (r, j), whether it is
  laid by casting it to one row and repeating the row, or by placing it along axis 1 of a one-row table that is then
  repeated.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.Sage.LibDot

open Idealize.ShloMosaic Idealize.ShloMosaic.ValueIdx

/-- Entry (a, b) of a plain product as a sum over the contracted axis' positions `k : Fin n`: the record contracts one
    axis of extent n (`hr`, `hs`), its left index at output (a, b) and contraction position q is (a, q) and its
    right index (q, b) (`hl0` … `hr1`, coordinate by coordinate). -/
theorem sum_plain {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (l : (⟨2, ![m, n]⟩ : Shape).Idx → EReal) (r : (⟨2, ![n, p]⟩ : Shape).Idx → EReal) (a : Fin m) (b : Fin p) :
    ∑ k : d.contr.Idx, l (d.lhsIdx (ix2 a b) k) * r (d.rhsIdx (ix2 a b) k) = ∑ k : Fin n, l (ix2 a k) * r (ix2 k b) := by
  rw [← Equiv.sum_comp (contrEquiv1 d n hr hs).symm]
  refine Finset.sum_congr rfl fun k _ => ?_
  have hk := contrEquiv1_symm_val d n hr hs k
  have el : d.lhsIdx (ix2 a b) ((contrEquiv1 d n hr hs).symm k) = ix2 a k := funext fun x => Fin.ext (by
    match x with
    | ⟨0, _⟩ => exact hl0 _ _
    | ⟨1, _⟩ => exact (hl1 _ _).trans hk)
  have er : d.rhsIdx (ix2 a b) ((contrEquiv1 d n hr hs).symm k) = ix2 k b := funext fun x => Fin.ext (by
    match x with
    | ⟨0, _⟩ => exact (hr0 _ _).trans hk
    | ⟨1, _⟩ => exact hr1 _ _)
  rw [el, er]

variable {α : Type}

/-- A vector cast to one row and the row repeated down m rows: entry (r, j) is the vector's entry j. -/
theorem row_cast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  have e1 := broadcastTo_apply (shapeCast ⟨2, ![1, n]⟩ x h1) hb (ix2 r j) (ix2 (0 : Fin 1) j) (by
    intro a
    match a with
    | ⟨0, _⟩ => rfl
    | ⟨1, _⟩ =>
      show j.val = if n = 1 then 0 else j.val
      split
      · have := j.isLt; omega
      · rfl)
  have e2 := shapeCast_apply x h1 (ix2 (0 : Fin 1) j) (ix1 j) (by
    rw [Shape.rowMajor_val_two, Shape.rowMajor_val_one]; show j.val = 0 * n + j.val; omega)
  exact e1.trans e2

/-- A vector placed along axis 1 of a one-row table and the table repeated down m rows: entry (r, j) is the vector's
    entry j. -/
theorem row_dims_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (r : Fin m) (j : Fin n) :
    broadcastInDim ⟨2, ![m, n]⟩ ![0, 1] hbc (broadcastInDim ⟨2, ![1, n]⟩ ![1] hd x) (ix2 r j) = x (ix1 j) := by
  rw [broadcastInDim_oneRow_apply]
  refine broadcastInDim_apply ![1] hd x (ix2 (0 : Fin 1) j) (ix1 j) ?_
  intro a
  match a with
  | ⟨0, _⟩ =>
    show j.val = if n = 1 then 0 else j.val
    split
    · have := j.isLt; omega
    · rfl

end Cert.Sage.LibDot

end
-- ==== Proof.KernelBlock.lean ====
/-
  One block of the scaled product, entry by entry.

  At a grid point the body holds a 5000 x 512 block x of the features, the whole 512 x 16 weight table w and a
  5000 x 1 column s of node normalizers. It stores  (x w) * s  with s repeated along the 16 columns. Read at the ideal
  values, where a change of float format is the identity and the matrix unit's product into a zero accumulator is the
  plain contraction, entry (r, c) of what it stores is
      (sum over k < 512 of x(r, k) * w(k, c)) * s(r, 0).
-/
import proofs.«139083_j66958540144842_2_alg».proof.Proof.Gen.KernelIdeal.Skeleton
import proofs.«139083_j66958540144842_2_alg».proof.Proof.LibDot
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! The block product's record contracts axis 1 of the features with axis 0 of the weights: at output (r, c) and
    contraction position q its left index is (r, q) and its right index (q, c). -/

theorem dot_l0 (i : S5000x16.Idx) (q : dot_S5000x512_S512x16_S5000x16_1_0_0_1_n_n.contr.Idx) :
    (dot_S5000x512_S512x16_S5000x16_1_0_0_1_n_n.lhsIdx i q 0).val = (i 0).val := by
  unfold DotDims.lhsIdx
  rw [dif_neg (show ¬(0 : Fin S5000x512.rank) ∈ dot_S5000x512_S512x16_S5000x16_1_0_0_1_n_n.lhsBatch by decide),
    dif_pos (show (0 : Fin S5000x512.rank) ∈ dot_S5000x512_S512x16_S5000x16_1_0_0_1_n_n.lhsNonContracting by decide)]
  rfl

theorem dot_l1 (i : S5000x16.Idx) (q : dot_S5000x512_S512x16_S5000x16_1_0_0_1_n_n.contr.Idx) :
    (dot_S5000x512_S512x16_S5000x16_1_0_0_1_n_n.lhsIdx i q 1).val = (q ⟨0, by decide⟩).val :=
  dot_S5000x512_S512x16_S5000x16_1_0_0_1_n_n.lhsIdx_val_of_single rfl i q

theorem dot_r0 (i : S5000x16.Idx) (q : dot_S5000x512_S512x16_S5000x16_1_0_0_1_n_n.contr.Idx) :
    (dot_S5000x512_S512x16_S5000x16_1_0_0_1_n_n.rhsIdx i q 0).val = (q ⟨0, by decide⟩).val :=
  dot_S5000x512_S512x16_S5000x16_1_0_0_1_n_n.rhsIdx_val_of_single rfl i q

theorem dot_r1 (i : S5000x16.Idx) (q : dot_S5000x512_S512x16_S5000x16_1_0_0_1_n_n.contr.Idx) :
    (dot_S5000x512_S512x16_S5000x16_1_0_0_1_n_n.rhsIdx i q 1).val = (i 1).val := by
  unfold DotDims.rhsIdx
  rw [dif_neg (show ¬(1 : Fin S512x16.rank) ∈ dot_S5000x512_S512x16_S5000x16_1_0_0_1_n_n.rhsBatch by decide),
    dif_pos (show (1 : Fin S512x16.rank) ∈ dot_S5000x512_S512x16_S5000x16_1_0_0_1_n_n.rhsNonContracting by decide)]
  rfl

/-- The column of normalizers repeated along the 16 columns reads, at (r, c), the column's entry r. -/
theorem col_apply (x2 : Vec Ideal S5000x1 .f32) (r : Fin 5000) (c : Fin 16) :
    broadcastTo S5000x16 (shapeCast S5000x1 x2 shapeCasts_S5000x1_S5000x1) broadcasts_S5000x1_S5000x16 (ix2 r c)
      = x2 (ix2 r (0 : Fin 1)) := by
  rw [shapeCast_self]
  refine broadcastTo_apply x2 broadcasts_S5000x1_S5000x16 (ix2 r c) (ix2 r (0 : Fin 1)) ?_
  intro a
  match a with
  | ⟨0, _⟩ => show r.val = if (5000 : ℕ) = 1 then 0 else r.val; rw [if_neg (by decide)]
  | ⟨1, _⟩ => show (0 : ℕ) = if (1 : ℕ) = 1 then 0 else _; rw [if_pos rfl]

/-- Entry (r, c) of what the body stores. -/
theorem pay_apply (x0 : Vec Ideal S5000x512 .f32) (x1 : Vec Ideal S512x16 .f32) (x2 : Vec Ideal S5000x1 .f32)
    (r : Fin 5000) (c : Fin 16) :
    k0_pay1 (F := Ideal) x0 x1 x2 (ix2 r c)
      = (∑ k : Fin 512, x0 (ix2 r k) * x1 (ix2 k c)) * x2 (ix2 r (0 : Fin 1)) := by
  unfold k0_pay1
  have hm : FloatOps.matmul (F := Ideal) dot_S5000x512_S512x16_S5000x16_1_0_0_1_n_n none
      (truncf (F := Ideal) .bf16 x0 bitsLt_bf16_f32) (truncf (F := Ideal) .bf16 x1 bitsLt_bf16_f32)
      (constant S5000x16 .f32 0x00000000#32) (ix2 r c) = ∑ k : Fin 512, x0 (ix2 r k) * x1 (ix2 k c) :=
    (Ideal.matmul_constant_zero_apply _ none _ _ _).trans
      (Cert.Sage.LibDot.sum_plain dot_S5000x512_S512x16_S5000x16_1_0_0_1_n_n rfl rfl dot_l0 dot_l1 dot_r0 dot_r1 x0 x1 r c)
  exact congrArg₂ (· * ·) hm (col_apply x2 r c)

end Cert.KernelIdeal.Block

end
-- ==== Proof.KernelArray.lean ====
/-
  The scaled product over all rows: what the region leaves in its output array.

  The grid has 20 points; point t handles rows 5000 t ... 5000 t + 4999: it reads that block of the features, the whole
  weight table and that block of the normalizer column, and writes back that block of the output. Every block written
  back is the restriction of ONE function of the three arrays,
      P(n, c) = (sum over k < 512 of x(n, k) * w(k, c)) * s(n, 0),
  and the 20 blocks cover all 100000 rows, so the output array ends holding P.
-/
import proofs.«139083_j66958540144842_2_alg».proof.Proof.Gen.KernelIdeal.Frame
import proofs.«139083_j66958540144842_2_alg».proof.Proof.KernelBlock
import Idealize.ShloMosaic.Lib.Pipeline.Value

set_option maxRecDepth 16384

noncomputable section

open scoped BigOperators

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The scaled product as one function of the feature table, the weight table and the normalizer column. -/
def scaled (X : S100000x512.Idx → EReal) (W : S512x16.Idx → EReal) (D : S100000x1.Idx → EReal) : S100000x16.Idx → EReal :=
  fun i => (∑ k : Fin 512, X (ix2 (⟨(i 0).val, (i 0).isLt⟩ : Fin 100000) k) * W (ix2 k (⟨(i 1).val, (i 1).isLt⟩ : Fin 16)))
    * D (ix2 (⟨(i 0).val, (i 0).isLt⟩ : Fin 100000) (0 : Fin 1))

theorem hz : (![0, 0] : Fin 2 → Nat) = fun _ => 0 := funext fun a => by fin_cases a <;> rfl

/-- The index maps over the grid: the row blocks of the features, the normalizers and the output move with the point;
    the weight table stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block t of the body's result, over ANY three arrays read through the input windows at point t: entry j of the block
    is the scaled product of the arrays at the array position of j in the output's block t. -/
theorem block_eq (A0 : S100000x512.Idx → EReal) (A1 : S512x16.Idx → EReal) (A2 : S100000x1.Idx → EReal)
    (t : Fin cfg0.N) (j : S5000x16.Idx) :
    k0_pay1 (F := Ideal) (((cfg0.win 0).blk t).view.read (Elt Ideal) A0) (((cfg0.win 1).blk t).view.read (Elt Ideal) A1)
        (((cfg0.win 2).blk t).view.read (Elt Ideal) A2) j
      = scaled A0 A1 A2 (((cfg0.win 3).blk t).view.emb j) := by
  obtain ⟨e0, e1, e2, e3, e4, e5, e6, e7⟩ := idx_facts t
  have hj : j = ix2 (⟨(j 0).val, (j 0).isLt⟩ : Fin 5000) (⟨(j 1).val, (j 1).isLt⟩ : Fin 16) := eq_ix2 (n0 := 5000) (n1 := 16) j
  refine (congrArg (k0_pay1 (F := Ideal) (((cfg0.win 0).blk t).view.read (Elt Ideal) A0)
    (((cfg0.win 1).blk t).view.read (Elt Ideal) A1) (((cfg0.win 2).blk t).view.read (Elt Ideal) A2)) hj).trans ?_
  refine (Block.pay_apply _ _ _ _ _).trans ?_
  -- each input block read where the output block's rectangle says
  have h0 : ∀ k : Fin 512, ((cfg0.win 0).blk t).view.emb (ix2 (⟨(j 0).val, (j 0).isLt⟩ : Fin 5000) k)
      = ix2 (⟨((((cfg0.win 3).blk t).view.emb j) 0).val, ((((cfg0.win 3).blk t).view.emb j) 0).isLt⟩ : Fin 100000) k := by
    intro k; funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 512 + 1 * k.val = k.val; omega
  have h1 : ∀ k : Fin 512, ((cfg0.win 1).blk t).view.emb (ix2 k (⟨(j 1).val, (j 1).isLt⟩ : Fin 16))
      = ix2 k (⟨((((cfg0.win 3).blk t).view.emb j) 1).val, ((((cfg0.win 3).blk t).view.emb j) 1).isLt⟩ : Fin 16) := by
    intro k; funext a; apply Fin.ext
    match a with
    | ⟨0, _⟩ => show win0_1.index t (0 : Fin 2) * 512 + 1 * k.val = k.val; omega
    | ⟨1, _⟩ => show win0_1.index t (1 : Fin 2) * 16 + 1 * (j 1).val = win0_3.index t (1 : Fin 2) * 16 + 1 * (j 1).val; omega
  have h2 : ((cfg0.win 2).blk t).view.emb (ix2 (⟨(j 0).val, (j 0).isLt⟩ : Fin 5000) (0 : Fin 1))
      = ix2 (⟨((((cfg0.win 3).blk t).view.emb j) 0).val, ((((cfg0.win 3).blk t).view.emb j) 0).isLt⟩ : Fin 100000) (0 : Fin 1) := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega
  show (∑ k : Fin 512, A0 (((cfg0.win 0).blk t).view.emb (ix2 (⟨(j 0).val, (j 0).isLt⟩ : Fin 5000) k))
        * A1 (((cfg0.win 1).blk t).view.emb (ix2 k (⟨(j 1).val, (j 1).isLt⟩ : Fin 16))))
      * A2 (((cfg0.win 2).blk t).view.emb (ix2 (⟨(j 0).val, (j 0).isLt⟩ : Fin 5000) (0 : Fin 1)))
    = (∑ k : Fin 512, A0 (ix2 (⟨((((cfg0.win 3).blk t).view.emb j) 0).val, ((((cfg0.win 3).blk t).view.emb j) 0).isLt⟩ : Fin 100000) k)
        * A1 (ix2 k (⟨((((cfg0.win 3).blk t).view.emb j) 1).val, ((((cfg0.win 3).blk t).view.emb j) 1).isLt⟩ : Fin 16)))
      * A2 (ix2 (⟨((((cfg0.win 3).blk t).view.emb j) 0).val, ((((cfg0.win 3).blk t).view.emb j) 0).isLt⟩ : Fin 100000) (0 : Fin 1))
  have hs : (∑ k : Fin 512, A0 (((cfg0.win 0).blk t).view.emb (ix2 (⟨(j 0).val, (j 0).isLt⟩ : Fin 5000) k))
        * A1 (((cfg0.win 1).blk t).view.emb (ix2 k (⟨(j 1).val, (j 1).isLt⟩ : Fin 16))))
      = ∑ k : Fin 512, A0 (ix2 (⟨((((cfg0.win 3).blk t).view.emb j) 0).val, ((((cfg0.win 3).blk t).view.emb j) 0).isLt⟩ : Fin 100000) k)
        * A1 (ix2 k (⟨((((cfg0.win 3).blk t).view.emb j) 1).val, ((((cfg0.win 3).blk t).view.emb j) 1).isLt⟩ : Fin 16)) :=
    Finset.sum_congr rfl fun k _ => by rw [h0 k, h1 k]
  rw [hs, h2]

/-- The same for the whole block: what the body leaves in the output's staging buffer, cut to the part written back,
    is block t of the scaled product — over any three arrays. -/
theorem flushed_core (A0 : S100000x512.Idx → EReal) (A1 : S512x16.Idx → EReal) (A2 : S100000x1.Idx → EReal)
    (t : Fin cfg0.N) :
    (cfg0.win 3).cut (grid0.coords t)
        (k0_pay1 (F := Ideal) (((cfg0.win 0).blk t).view.read (Elt Ideal) A0) (((cfg0.win 1).blk t).view.read (Elt Ideal) A1)
          (((cfg0.win 2).blk t).view.read (Elt Ideal) A2))
      = ((cfg0.win 3).blk t).view.read (Elt Ideal) (scaled A0 A1 A2) := by
  funext j
  exact block_eq A0 A1 A2 t j

/-- What point t writes back is block t of the scaled product of the three input windows' arrays as the region finds them. -/
theorem flushed_eq (c : Dev nD) (t : Fin cfg0.N) :
    (dats m 0 c).flushed 3 t = ((cfg0.win 3).blk t).view.read (Elt Ideal)
      (scaled (V m c (Pipeline.arrRef spec0 0)) (V m c (Pipeline.arrRef spec0 1)) (V m c (Pipeline.arrRef spec0 2))) := by
  show (cfg0.win 3).cut (grid0.coords t) ((dats m 0 c).after 3 t) = _
  rw [after0_3]
  unfold out0_3
  rw [View.canon_unit_zero hz]
  simp only [View.ld_unit_zero (S := S5000x512) hz, View.ld_unit_zero (S := S512x16) hz, View.ld_unit_zero (S := S5000x1) hz]
  unfold iblk
  exact flushed_core _ _ _ t

/-- An index of the output array is in point t's block iff each coordinate is in the block's range on its axis. -/
theorem mem_blk (t : Fin cfg0.N) (i : S100000x16.Idx) :
    i ∈ ((cfg0.win 3).blk t).view.set ↔ ∀ a : Fin 2, win0_3.index t a * S5000x16.size a ≤ (i a).val
      ∧ (i a).val < win0_3.index t a * S5000x16.size a + S5000x16.size a := by
  show i ∈ ((View.whole main_v19).slice (win0_3.rect t)).set ↔ _
  rw [View.set_slice_whole, Rect.mem_set_unit]
  exact Iff.rfl

/-- Row n of the output lies in the block of point n / 5000, which writes its block back. -/
theorem cover (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 20 := N_0
  have ht : (i 0).val / 5000 < cfg0.N := by rw [hN]; omega
  obtain ⟨-, -, -, -, -, -, e6, e7⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 16 ≤ (i 1).val
      ∧ (i 1).val < win0_3.index ⟨(i 0).val / 5000, ht⟩ (1 : Fin 2) * 16 + 16
    rw [e7]; omega

/-- The output array after the region: the scaled product of the arrays as the region finds them. -/
theorem final (c : Dev nD) :
    (dats m 0 c).arrAt 3 cfg0.N
      = scaled (V m c (Pipeline.arrRef spec0 0)) (V m c (Pipeline.arrRef spec0 1)) (V m c (Pipeline.arrRef spec0 2)) :=
  (dats m 0 c).arrAt_eq_of_cover 3 _ (fun t _ => flushed_eq m c t) cover

end Cert.KernelIdeal.Region

end
-- ==== Proof.KernelTail.lean ====
/-
  The host side of the kernel program, read back.

  Before the region the program builds, from the edge list and the edge weights, the source and destination index
  arrays with one self loop per node appended, the weights with a one per self loop appended, the degrees (the weights
  summed into their destination rows) and the normalizers; these are the same operations, in the same order, as the
  first lines of the reference, so each buffer holds the reference's stage of the same name. The normalizer itself is
  produced by a three-line selection function called after those lines; only its last four lines are read apart.
  After the region the program takes rows of the region's output at the wrapped source indices, multiplies by the
  weights, sums into destination rows, scales each row by its normalizer and adds the bias: `outK`.
-/
import proofs.«139083_j66958540144842_2_alg».proof.Proof.Gen.KernelIdeal.Frame
import proofs.«139083_j66958540144842_2_alg».proof.Proof.Gen.ReferenceIdeal.Read
import proofs.«139083_j66958540144842_2_alg».proof.Proof.KernelArray
import Idealize.ShloMosaic.Lib.Pipeline.Value
import Idealize.ShloMosaic.Lib.StableHlo.Run

set_option maxRecDepth 16384

noncomputable section

namespace Cert.KernelIdeal.Tail

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-! ## A typed reference's transports are the identity -/

section Transport
variable {T : BufTy}

/-- Reading contents of a typed reference's buffer as contents at the value's type changes nothing. -/
theorem ofBuf_eq (x : TRef sig T) (w : x.ref.ty.Contents (Elt Ideal)) (w' : T.Contents (Elt Ideal)) (h : HEq w w') :
    x.ofBuf w = w' := by
  obtain ⟨r, rfl, _, _⟩ := x
  exact eq_of_heq h

/-- Nor does storing contents at the value's type as contents of the buffer. -/
theorem toBuf_eq (x : TRef sig T) (v : T.Contents (Elt Ideal)) (v' : x.ref.ty.Contents (Elt Ideal)) (h : HEq v v') :
    x.toBuf v = v' := by
  obtain ⟨r, rfl, _, _⟩ := x
  exact eq_of_heq h

/-- Stored and read back. -/
theorem ofBuf_toBuf (x : TRef sig T) (v : T.Contents (Elt Ideal)) : x.ofBuf (x.toBuf v) = v := by
  obtain ⟨r, rfl, _, _⟩ := x
  rfl

end Transport

/-! ## Before the region -/

/-- The buffers after the first stretch of host lines (everything up to the call of the selection function). -/
def G0 (c : Dev nD) : Valuation τ sig (Elt Ideal) := StableHlo.after (hostOps0 (F := Ideal)) (fun b => m (c, b))

/-- The region finds the buffers as the selection function's three lines and one broadcast leave them from there. -/
theorem V0_split (c : Dev nD) :
    V0 m c = StableHlo.after hostOps0_2 (StableHlo.after hostOps0_1 (G0 m c)) := by
  show StableHlo.after (List.flatten [hostOps0, hostOps0_1, hostOps0_2]) (fun b => m (c, b)) = _
  simp only [List.flatten_cons, List.flatten_nil, List.append_nil]
  rw [StableHlo.after_append, StableHlo.after_append]
  rfl

set_option maxHeartbeats 4000000 in
theorem G_src (c : Dev nD) :
    (G0 m c (Proc.devRef .tc main_v5) : S3300000.Idx → BitVec 32) = Cert.ReferenceIdeal.Read.val_main_v5 (F := Ideal) (m ((c : Thread nD τ).loc main_arg1)) := by
  unfold G0
  simp only [hostOps0]
  after_results
  rfl

set_option maxHeartbeats 4000000 in
theorem G_dst (c : Dev nD) :
    (G0 m c (Proc.devRef .tc main_v6) : S3300000.Idx → BitVec 32) = Cert.ReferenceIdeal.Read.val_main_v6 (F := Ideal) (m ((c : Thread nD τ).loc main_arg1)) := by
  unfold G0
  simp only [hostOps0]
  after_results
  rfl

set_option maxHeartbeats 4000000 in
theorem G_wf (c : Dev nD) :
    (G0 m c (Proc.devRef .tc main_v8) : S3300000.Idx → EReal) = Cert.ReferenceIdeal.Read.val_main_v8 (F := Ideal) (m ((c : Thread nD τ).loc main_arg2)) := by
  unfold G0
  simp only [hostOps0]
  after_results
  rfl

set_option maxHeartbeats 20000000 in
theorem G_cmp (c : Dev nD) :
    (G0 m c (Proc.devRef .tc main_v13) : S100000.Idx → BitVec 1) = Cert.ReferenceIdeal.Read.val_main_v13 (F := Ideal) (m ((c : Thread nD τ).loc main_arg1)) (m ((c : Thread nD τ).loc main_arg2)) := by
  unfold G0
  simp only [hostOps0]
  after_results
  rfl

set_option maxHeartbeats 20000000 in
theorem G_rs (c : Dev nD) :
    (G0 m c (Proc.devRef .tc main_v16) : S100000.Idx → EReal) = Cert.ReferenceIdeal.Read.val_main_v16 (F := Ideal) (m ((c : Thread nD τ).loc main_arg1)) (m ((c : Thread nD τ).loc main_arg2)) := by
  unfold G0
  simp only [hostOps0]
  after_results
  rfl

set_option maxHeartbeats 4000000 in
theorem G_zero (c : Dev nD) :
    (G0 m c (Proc.devRef .tc main_cst_3) : S_.Idx → EReal) = Cert.ReferenceIdeal.Read.val_main_cst_3 (F := Ideal) := by
  unfold G0
  simp only [hostOps0]
  after_results
  rfl

theorem V_src (c : Dev nD) :
    (V m c main_v5 : S3300000.Idx → BitVec 32) = Cert.ReferenceIdeal.Read.val_main_v5 (F := Ideal) (m ((c : Thread nD τ).loc main_arg1)) := by
  refine Eq.trans ?_ (G_src m c)
  show V0 m c (Proc.devRef .tc main_v5) = _
  rw [V0_split]
  simp only [hostOps0_1, hostOps0_2]
  after_results

theorem V_dst (c : Dev nD) :
    (V m c main_v6 : S3300000.Idx → BitVec 32) = Cert.ReferenceIdeal.Read.val_main_v6 (F := Ideal) (m ((c : Thread nD τ).loc main_arg1)) := by
  refine Eq.trans ?_ (G_dst m c)
  show V0 m c (Proc.devRef .tc main_v6) = _
  rw [V0_split]
  simp only [hostOps0_1, hostOps0_2]
  after_results

theorem V_wf (c : Dev nD) :
    (V m c main_v8 : S3300000.Idx → EReal) = Cert.ReferenceIdeal.Read.val_main_v8 (F := Ideal) (m ((c : Thread nD τ).loc main_arg2)) := by
  refine Eq.trans ?_ (G_wf m c)
  show V0 m c (Proc.devRef .tc main_v8) = _
  rw [V0_split]
  simp only [hostOps0_1, hostOps0_2]
  after_results

/-- The normalizers the region finds are the reference's. -/
theorem V_dis (c : Dev nD) :
    (V m c main_v17 : S100000.Idx → EReal) = Cert.ReferenceIdeal.Read.val_main_v17 (F := Ideal) (m ((c : Thread nD τ).loc main_arg1)) (m ((c : Thread nD τ).loc main_arg2)) := by
  show V0 m c (Proc.devRef .tc main_v17) = _
  rw [V0_split]
  simp only [hostOps0_1, hostOps0_2]
  after_results
  rw [G_cmp m c, G_rs m c, G_zero m c]
  rw [ofBuf_eq _ _ (Cert.ReferenceIdeal.Read.val_main_v13 (F := Ideal) (m ((c : Thread nD τ).loc main_arg1)) (m ((c : Thread nD τ).loc main_arg2))) HEq.rfl,
    ofBuf_eq _ _ (Cert.ReferenceIdeal.Read.val_main_v16 (F := Ideal) (m ((c : Thread nD τ).loc main_arg1)) (m ((c : Thread nD τ).loc main_arg2))) HEq.rfl,
    ofBuf_eq _ _ (Cert.ReferenceIdeal.Read.val_main_cst_3 (F := Ideal)) HEq.rfl]
  refine toBuf_eq _ _ _ (heq_of_eq ?_)
  rfl

/-- The normalizer column the region's third window reads is the reference's normalizers laid out as a column. -/
theorem V_col (c : Dev nD) :
    (V m c main_v18 : S100000x1.Idx → EReal)
      = broadcastInDim S100000x1 ![0] bcast_S100000_S100000x1_0 (Cert.ReferenceIdeal.Read.val_main_v17 (F := Ideal) (m ((c : Thread nD τ).loc main_arg1)) (m ((c : Thread nD τ).loc main_arg2))) := by
  show V0 m c (Proc.devRef .tc main_v18) = _
  rw [V0_split]
  simp only [hostOps0_1, hostOps0_2]
  after_results
  rw [G_cmp m c, G_rs m c, G_zero m c]
  rw [ofBuf_eq _ _ (Cert.ReferenceIdeal.Read.val_main_v13 (F := Ideal) (m ((c : Thread nD τ).loc main_arg1)) (m ((c : Thread nD τ).loc main_arg2))) HEq.rfl,
    ofBuf_eq _ _ (Cert.ReferenceIdeal.Read.val_main_v16 (F := Ideal) (m ((c : Thread nD τ).loc main_arg1)) (m ((c : Thread nD τ).loc main_arg2))) HEq.rfl,
    ofBuf_eq _ _ (Cert.ReferenceIdeal.Read.val_main_cst_3 (F := Ideal)) HEq.rfl]
  rw [toBuf_eq _ _ (Cert.ReferenceIdeal.Read.val_main_v17 (F := Ideal) (m ((c : Thread nD τ).loc main_arg1)) (m ((c : Thread nD τ).loc main_arg2))) (heq_of_eq (by rfl))]

end Cert.KernelIdeal.Tail

end
-- ==== Proof.KernelRun.lean ====
/-
  The kernel program's result.

  After the region the host lines compute, from the normalizers s, the source and destination index arrays, the weights w,
  the region's output P and the bias b:
      out(d, c) = s(d) * ( 0 + sum over the edges e landing on row d of P(src'(e), c) * w(e) ) + b(c),
  src' the source index wrapped when negative and clamped into the table. The region's output is the scaled product of
  the features, the weight table and the normalizer column; every buffer the tail reads was left by the lines before the
  region and holds the reference's stage of the same name. So the program's result is `result`, one function of the five
  argument arrays.
-/
import proofs.«139083_j66958540144842_2_alg».proof.Proof.KernelTail

set_option maxRecDepth 16384

noncomputable section

namespace Cert.KernelIdeal.Tail

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The host lines after the region as one function of what they read. -/
def outK (dis : S100000.Idx → EReal) (src dst : S3300000.Idx → BitVec 32) (wf : S3300000.Idx → EReal)
    (p : S100000x16.Idx → EReal) (b : S16.Idx → EReal) : S100000x16.Idx → EReal :=
  addf (F := Ideal) (φ := .f32)
    (mulf (F := Ideal) (φ := .f32)
      (broadcastInDim S100000x16 ![0, 1] bcast_S100000x1_S100000x16_0_1 (broadcastInDim S100000x1 ![0] bcast_S100000_S100000x1_0 dis))
      (Host.scatterAdd (F := Ideal) (φ := .f32) scatter_S100000x16_S3300000x1_S3300000x16_1_0_0_1
        (broadcastInDim S100000x16 ![] bcast_S_S100000x16 (constant (F := Ideal) S_ .f32 0x00000000#32))
        (broadcastInDim S3300000x1 ![0] bcast_S3300000_S3300000x1_0 dst)
        (mulf (F := Ideal) (φ := .f32)
          (Host.gather gather_S100000x16_S3300000x1_S3300000x16_1_0_n_n_0_1_116 p
            (broadcastInDim S3300000x1 ![0] bcast_S3300000_S3300000x1_0
              (select (cmpi .slt src (broadcastInDim S3300000 ![] bcast_S_S3300000 (constantI S_ 32 0#32)))
                (addi src (broadcastInDim S3300000 ![] bcast_S_S3300000 (constantI S_ 32 100000#32))) src)))
          (broadcastInDim S3300000x16 ![0, 1] bcast_S3300000x1_S3300000x16_0_1
            (broadcastInDim S3300000x1 ![0] bcast_S3300000_S3300000x1_0 wf)))))
    (broadcastInDim S100000x16 ![0, 1] bcast_S1x16_S100000x16_0_1 (broadcastInDim S1x16 ![1] bcast_S16_S1x16_1 b))

set_option maxHeartbeats 4000000 in
/-- What the lines after the region leave in the result buffer, over the buffers as the region found them and the
    region's output array. -/
theorem tail_eq (c : Dev nD) :
    (Pipeline.afterTail₀ cfgs (dats m) 0 (V0 m) [hostOps1] c main_v38 : S100000x16.Idx → EReal)
      = outK (V m c main_v17) (V m c main_v5) (V m c main_v6) (V m c main_v8) ((dats m 0 c).arrAt 3 cfg0.N) (V m c main_arg4) := by
  unfold Pipeline.afterTail₀
  show StableHlo.after hostOps1 _ (Proc.devRef .tc main_v38) = _
  after_results_simp
  rw [Pipeline.withArrays_of_ne _ c (V0 m c) _ main_v17 (by exact (by decide : ∀ w, Pipeline.arrRef spec0 w ≠ main_v17)), Pipeline.withArrays_of_ne _ c (V0 m c) _ main_v6 (by exact (by decide : ∀ w, Pipeline.arrRef spec0 w ≠ main_v6)),
    Pipeline.withArrays_of_ne _ c (V0 m c) _ main_v5 (by exact (by decide : ∀ w, Pipeline.arrRef spec0 w ≠ main_v5)), Pipeline.withArrays_of_ne _ c (V0 m c) _ main_v8 (by exact (by decide : ∀ w, Pipeline.arrRef spec0 w ≠ main_v8)),
    Pipeline.withArrays_of_ne _ c (V0 m c) _ main_arg4 (by exact (by decide : ∀ w, Pipeline.arrRef spec0 w ≠ main_arg4)),
    show Pipeline.withArrays (cfgs 0).spec c (V0 m c) (fun w => (dats m 0 c).arrAt w (cfgs 0).N) (Proc.devRef .tc main_v19)
      = (dats m 0 c).arrAt 3 cfg0.N from Pipeline.withArrays_arr spec0 launch0.win.arr_inj c _ _ 3]
  rfl

/-- The three input windows' arrays as the region finds them. -/
theorem V_arr0 (c : Dev nD) : (V m c (Pipeline.arrRef spec0 0) : S100000x512.Idx → EReal) = (m ((c : Thread nD τ).loc main_arg0)) := V_main_arg0 m c
theorem V_arr1 (c : Dev nD) : (V m c (Pipeline.arrRef spec0 1) : S512x16.Idx → EReal) = (m ((c : Thread nD τ).loc main_arg3)) := V_main_arg3 m c
theorem V_arr2 (c : Dev nD) : (V m c (Pipeline.arrRef spec0 2) : S100000x1.Idx → EReal)
    = broadcastInDim S100000x1 ![0] bcast_S100000_S100000x1_0 (Cert.ReferenceIdeal.Read.val_main_v17 (F := Ideal) (m ((c : Thread nD τ).loc main_arg1)) (m ((c : Thread nD τ).loc main_arg2))) := V_col m c

/-- The program's result as one function of the five argument arrays. -/
def result (x0 : S100000x512.Idx → EReal) (x1 : S2x3200000.Idx → BitVec 32) (x2 : S3200000.Idx → EReal)
    (x3 : S512x16.Idx → EReal) (x4 : S16.Idx → EReal) : S100000x16.Idx → EReal :=
  outK (Cert.ReferenceIdeal.Read.val_main_v17 (F := Ideal) x1 x2) (Cert.ReferenceIdeal.Read.val_main_v5 (F := Ideal) x1) (Cert.ReferenceIdeal.Read.val_main_v6 (F := Ideal) x1)
    (Cert.ReferenceIdeal.Read.val_main_v8 (F := Ideal) x2)
    (Region.scaled x0 x3 (broadcastInDim S100000x1 ![0] bcast_S100000_S100000x1_0 (Cert.ReferenceIdeal.Read.val_main_v17 (F := Ideal) x1 x2))) x4

theorem value (c : Dev nD) :
    (Pipeline.afterTail₀ cfgs (dats m) 0 (V0 m) [hostOps1] c main_v38 : S100000x16.Idx → EReal)
      = result (m ((c : Thread nD τ).loc main_arg0)) (m ((c : Thread nD τ).loc main_arg1)) (m ((c : Thread nD τ).loc main_arg2)) (m ((c : Thread nD τ).loc main_arg3)) (m ((c : Thread nD τ).loc main_arg4)) := by
  rw [tail_eq m c, V_dis m c, V_src m c, V_dst m c, V_wf m c, Region.final m c, V_arr0 m c, V_arr1 m c, V_arr2 m c,
    V_main_arg4 m c]
  rfl

/-- Every weakly fair execution of the kernel program terminates with the result buffer at `result` of the argument arrays
    and the argument arrays unchanged. -/
theorem run : θ_run defs (onTc (τ := τ) (main (F := Ideal))) ⟨m, fun _ => 0, ρ⟩ (fun r => ∀ c : Dev nD,
      r.2.mem ((c.tc : Thread nD τ).loc main_v38) = result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v38 (Pipeline.mem_restRefs_of main_v38 (by decide) (by decide))).trans (value m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 1).trans (((dats m 0 c).arrAt_in 1 rfl _).trans ((A_eq m c 1).trans (V_main_arg3 m c))),
      (((h c).2 main_arg4 (Pipeline.mem_restRefs_of main_arg4 (by decide) (by decide))).trans (W_main_arg4 m (dats m) c))⟩)
    (run_main m ρ)

end Cert.KernelIdeal.Tail

end
-- ==== Proof.LibGcnSpec.lean ====
/-
  The algebra of a normalized neighbourhood sum, on the extended reals.

  A node's normalizer is  s = 1/sqrt(max(deg, c))  where its degree deg is positive, and 0 elsewhere. Whatever deg is
  (a real, or an infinity), s is a nonnegative extended real other than +infinity: where deg > 0 the maximum is at least
  deg, so it is positive or +infinity, and the reciprocal square root of such a number is a nonnegative real.

  Multiplication by such a number distributes over an initial value plus a finite sum, with no finiteness assumed of
  the summands. Hence scaling every message by the receiver's normalizer before summing, or scaling the sum afterwards,
  give the same aggregate; the sender's normalizer and the edge weight only move inside a commutative product:
      s_d * (0 + sum_j (h_j * s_j) * w_j) + b  =  (0 + sum_j h_j * ((s_j * w_j) * s_d)) + b.
-/
import Idealize.ShloMosaic.PureOps.Ideal
import Mathlib.Data.EReal.Operations

noncomputable section

open scoped BigOperators

namespace Cert.GcnSpec

open Idealize.ShloMosaic

/-- A nonnegative extended real other than +infinity multiplies through an initial value plus a finite sum. -/
theorem mul_add_sum {ι : Type} (a : EReal) (h0 : 0 ≤ a) (ht : a ≠ ⊤) (x : EReal) (s : Finset ι) (f : ι → EReal) :
    a * (x + ∑ j ∈ s, f j) = a * x + ∑ j ∈ s, a * f j := by
  classical
  induction s using Finset.induction_on with
  | empty => simp
  | insert b s hb ih =>
    rw [Finset.sum_insert hb, Finset.sum_insert hb, add_left_comm, EReal.left_distrib_of_nonneg_of_ne_top h0 ht, ih,
      add_left_comm]

/-- Scaling the summed messages by the receiver's normalizer equals summing messages that each carry it. -/
theorem agg_eq {ι : Type} (s : Finset ι) (sd : EReal) (h0 : 0 ≤ sd) (ht : sd ≠ ⊤) (h ss w : ι → EReal) (b : EReal) :
    sd * (0 + ∑ j ∈ s, (h j * ss j) * w j) + b = (0 + ∑ j ∈ s, h j * ((ss j * w j) * sd)) + b := by
  rw [mul_add_sum sd h0 ht, mul_zero]
  congr 2
  refine Finset.sum_congr rfl fun j _ => ?_
  ac_rfl

/-- The reciprocal square root of a positive extended real is a nonnegative real. -/
theorem rsqrt_pos_bounds {y : EReal} (hy : 0 < y) : 0 ≤ Ideal.rsqrt y ∧ Ideal.rsqrt y ≠ ⊤ := by
  induction y using EReal.rec with
  | bot => exact absurd hy (by simp)
  | top => rw [Ideal.rsqrt_top]; exact ⟨le_refl _, EReal.zero_ne_top⟩
  | coe r =>
    have hr : 0 < r := by exact_mod_cast hy
    rw [Ideal.rsqrt_coe, if_neg (not_lt.mpr hr.le), if_neg hr.ne']
    exact ⟨by exact_mod_cast inv_nonneg.mpr (Real.sqrt_nonneg r), EReal.coe_ne_top _⟩

/-- The normalizer: the reciprocal square root of max(deg, c) where deg > 0, and 0 elsewhere — a nonnegative extended
    real other than +infinity, whatever deg and c are. -/
theorem normalizer_bounds (deg c : EReal) :
    0 ≤ Scalar.select (Ideal.cmp .ogt deg 0) (Ideal.rsqrt (max deg c)) 0
      ∧ Scalar.select (Ideal.cmp .ogt deg 0) (Ideal.rsqrt (max deg c)) 0 ≠ ⊤ := by
  unfold Scalar.select Ideal.cmp
  by_cases h : (0 : EReal) < deg
  · have e : BitVec.ofBool (decide ((0 : EReal) < deg)) = 1 := by simp [h]
    rw [if_pos e]
    exact rsqrt_pos_bounds (lt_of_lt_of_le h (le_max_left _ _))
  · have e : BitVec.ofBool (decide ((0 : EReal) < deg)) ≠ 1 := by simp [h]
    rw [if_neg e]
    exact ⟨le_refl _, EReal.zero_ne_top⟩

end Cert.GcnSpec

end
-- ==== Proof.LibRowIndex.lean ====
/-
  Where a row gather reads and where a row scatter lands, for index arrays of shape [E, 1].

  Taking rows of an [N, C] table (or entries of a length-N vector) at start indices laid out as an [E, 1] array reads,
  for result row e, the operand's row  min(toNat(idx[e, 0] read signed), N - 1): the start index is clamped into the
  operand. A scatter of [E, C] updates into an [N, C] operand at scatter indices laid out the same way sends update
  (e, c) to row idx[e, 0] read signed and NOT clamped, so an update lands on row r only when idx[e, 0] is exactly r.
  Consequently an index that lands somewhere is non-negative and below N, is left alone by the usual wrap-around of
  negative indices (add N when negative), and a gather at it reads the row it lands on.
-/
import Idealize.ShloMosaic.PureOps.ShapeOps
import Idealize.ShloMosaic.Lib.ValueIdx

noncomputable section

namespace Cert.GcnIndex

open Idealize.ShloMosaic Idealize.ShloMosaic.ValueIdx

variable {N E C w : Nat}

/-- Dimension numbers of taking whole rows of an [N, C] table at [E, 1] start indices. -/
abbrev rowGather (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of taking entries of a length-N vector at [E, 1] start indices. -/
abbrev vecGather (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of scattering [E, C] update rows into an [N, C] table at [E, 1] scatter indices. -/
abbrev rowScatter (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row a row gather reads for result position j: the start index of j's row, read signed and clamped. -/
theorem rowGather_row (wf : GatherDims.WF ⟨2, ![N, C]⟩ ⟨2, ![E, 1]⟩ ⟨2, ![E, C]⟩ [1] [0] [] [0] [] 1 ![1, C])
    (idx : IVec ⟨2, ![E, 1]⟩ w) (j : (⟨2, ![E, C]⟩ : Shape).Idx) :
    ((rowGather wf).operandIdx j idx 0).val = min (idx (ix2 (j 0) (0 : Fin 1))).toInt.toNat (N - 1) := by
  show (rowGather wf).start j idx 0 + (rowGather wf).batchCoord j 0 + (rowGather wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather wf).startIndexMap from List.mem_singleton.mpr rfl)]
  have hsi : (rowGather wf).siIdx j ⟨List.idxOf (0 : Fin 2) (rowGather wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The entry a vector gather reads for result position j: the same clamped start index. -/
theorem vecGather_row (wf : GatherDims.WF ⟨1, ![N]⟩ ⟨2, ![E, 1]⟩ ⟨1, ![E]⟩ [] [0] [] [0] [] 1 ![1])
    (idx : IVec ⟨2, ![E, 1]⟩ w) (j : (⟨1, ![E]⟩ : Shape).Idx) :
    ((vecGather wf).operandIdx j idx 0).val = min (idx (ix2 (j 0) (0 : Fin 1))).toInt.toNat (N - 1) := by
  show (vecGather wf).start j idx 0 + (vecGather wf).batchCoord j 0 + (vecGather wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather wf).startIndexMap from List.mem_singleton.mpr rfl)]
  have hsi : (vecGather wf).siIdx j ⟨List.idxOf (0 : Fin 1) (vecGather wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- An update that lands on operand position i has, as its row's scatter index read signed, exactly i's row. -/
theorem rowScatter_lands (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowScatter wf).resultIdx? j idx = some i) :
    (idx (ix2 (j 0) (0 : Fin 1))).toInt = ((i 0).val : Int) := by
  have s0 : (rowScatter wf).start j idx 0 = (idx (ix2 (j 0) (0 : Fin 1))).toInt := by
    unfold ScatterDims.start
    rw [dif_pos (show (0 : Fin 2) ∈ (rowScatter wf).scatterDimsToOperandDims from List.mem_singleton.mpr rfl)]
    have hsi : (rowScatter wf).siIdx j ⟨List.idxOf (0 : Fin 2) (rowScatter wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have w0 : (rowScatter wf).window j 0 = 0 := rfl
  unfold ScatterDims.resultIdx? at h
  split at h
  · rename_i hb
    have e := Option.some.inj h
    have e0 : ((rowScatter wf).start j idx 0 + ((rowScatter wf).window j 0 : Int)).toNat = (i 0).val :=
      congrArg (fun f : (⟨2, ![N, C]⟩ : Shape).Idx => (f 0).val) e
    have hb0 := (hb 0).1
    rw [s0, w0] at e0 hb0
    omega
  · exact absurd h (by simp)

/-- A 32-bit index that, read signed, is a row number below N (N itself below 2^31) is not negative, so the
    wrap-around of negative indices leaves it alone. -/
theorem wrap_of_lands (x n : BitVec 32) (r : Nat) (hx : x.toInt = (r : Int)) :
    Scalar.select (IntOp.cmpi .slt x 0#32) (IntOp.addi x n) x = x := by
  have hs : x.slt 0#32 = false := by
    rw [BitVec.slt_eq_decide]
    simp only [BitVec.toInt_zero, decide_eq_false_iff_not, not_lt]
    omega
  unfold Scalar.select IntOp.cmpi
  simp only [hs]
  rfl

/-- At such an index the clamp of a gather is the identity. -/
theorem clamp_of_lands (x : BitVec 32) (r : Nat) (hr : r < N) (hx : x.toInt = (r : Int)) :
    min x.toInt.toNat (N - 1) = r := by
  rw [hx]; simp only [Int.toNat_natCast]; omega

end Cert.GcnIndex

end
-- ==== Proof.LibGcnCore.lean ====
/-
  The aggregation identity for arrays.

  N nodes, E edges, C channels. An edge e sends the source row of a table to its destination row; sources are read by a
  clamped gather at index array J, destinations are written by an accumulating scatter at index array I (an edge whose
  destination index is outside the table is dropped). With s the nodes' normalizers (nonnegative, never +infinity) and
  w the edge weights, the two ways of normalizing agree entry by entry:
      s(d) * scatter_I( gather_J(H * s) * w )(d, c)  =  scatter_I( gather_J(H) * ((s(src) * w) * s(dst)) )(d, c),
  where on the right s(src), s(dst) are gathers of s at the wrapped source and destination indices. The reason: an edge
  that lands on row d has destination index exactly d, which the wrap and the clamp leave alone, so its s(dst) is s(d);
  the vector gather and the row gather at one index array read the same row; and s(d), a nonnegative number other than
  +infinity, multiplies through the sum.
-/
import proofs.«139083_j66958540144842_2_alg».proof.Proof.LibGcnSpec
import proofs.«139083_j66958540144842_2_alg».proof.Proof.LibRowIndex
import Idealize.ShloMosaic.PureOps.Ideal.Laws
import Idealize.ShloMosaic.Lib.ValueIdx

noncomputable section

open scoped BigOperators

namespace Cert.GcnCore

open Idealize.ShloMosaic Idealize.ShloMosaic.ValueIdx Cert.GcnIndex

variable {N E C : Nat}

theorem agg (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfV : GatherDims.WF ⟨1, ![N]⟩ ⟨2, ![E, 1]⟩ ⟨1, ![E]⟩ [] [0] [] [0] [] 1 ![1])
    (DIS : (⟨1, ![N]⟩ : Shape).Idx → EReal) (hD : ∀ n, 0 ≤ DIS n ∧ DIS n ≠ ⊤)
    (H OUT : (⟨2, ![N, C]⟩ : Shape).Idx → EReal)
    (hOUT : ∀ p : (⟨2, ![N, C]⟩ : Shape).Idx, OUT p = H p * DIS (ix1 (p 0)))
    (Z : (⟨2, ![N, C]⟩ : Shape).Idx → EReal) (hZ : ∀ i, Z i = 0)
    (I J J1 J2 : IVec ⟨2, ![E, 1]⟩ 32) (nn : BitVec 32)
    (hJ1 : ∀ e : Fin E, J1 (ix2 e (0 : Fin 1)) = J (ix2 e (0 : Fin 1)))
    (hJ2 : ∀ e : Fin E, J2 (ix2 e (0 : Fin 1))
      = Scalar.select (IntOp.cmpi .slt (I (ix2 e (0 : Fin 1))) 0#32) (IntOp.addi (I (ix2 e (0 : Fin 1))) nn) (I (ix2 e (0 : Fin 1))))
    (WF : (⟨1, ![E]⟩ : Shape).Idx → EReal) (WB NB : (⟨2, ![E, C]⟩ : Shape).Idx → EReal)
    (hW : ∀ j : (⟨2, ![E, C]⟩ : Shape).Idx, WB j = WF (ix1 (j 0)))
    (hNB : ∀ j : (⟨2, ![E, C]⟩ : Shape).Idx, NB j
      = (Host.gather (vecGather wfV) DIS J1 (ix1 (j 0)) * WF (ix1 (j 0))) * Host.gather (vecGather wfV) DIS J2 (ix1 (j 0)))
    (i : (⟨2, ![N, C]⟩ : Shape).Idx) :
    DIS (ix1 (i 0)) * Host.scatterAdd (F := Ideal) (φ := .f32) (rowScatter wfS) Z I (mulf (F := Ideal) (φ := .f32) (Host.gather (rowGather wfG) OUT J) WB) i
      = Host.scatterAdd (F := Ideal) (φ := .f32) (rowScatter wfS) Z I (mulf (F := Ideal) (φ := .f32) (Host.gather (rowGather wfG) H J) NB) i := by
  have hd := hD (ix1 (i 0))
  show DIS (ix1 (i 0)) * (Z i + ∑ j ∈ Finset.univ.filter (fun j => (rowScatter wfS).resultIdx? j I = some i),
        (OUT ((rowGather wfG).operandIdx j J) * WB j))
      = Z i + ∑ j ∈ Finset.univ.filter (fun j => (rowScatter wfS).resultIdx? j I = some i),
        (H ((rowGather wfG).operandIdx j J) * NB j)
  rw [hZ i, Cert.GcnSpec.mul_add_sum _ hd.1 hd.2, mul_zero]
  refine congrArg (0 + ·) (Finset.sum_congr rfl fun j hj => ?_)
  have hl := rowScatter_lands wfS I j i (Finset.mem_filter.mp hj).2
  rw [hOUT, hW, hNB]
  show DIS (ix1 (i 0)) * (H ((rowGather wfG).operandIdx j J) * DIS (ix1 (((rowGather wfG).operandIdx j J) 0)) * WF (ix1 (j 0)))
      = H ((rowGather wfG).operandIdx j J) * ((DIS ((vecGather wfV).operandIdx (ix1 (j 0)) J1) * WF (ix1 (j 0)))
          * DIS ((vecGather wfV).operandIdx (ix1 (j 0)) J2))
  have e1 : (vecGather wfV).operandIdx (ix1 (j 0)) J1 = ix1 (((rowGather wfG).operandIdx j J) 0) := by
    funext a
    obtain rfl : a = 0 := Subsingleton.elim _ _
    apply Fin.ext
    show ((vecGather wfV).operandIdx (ix1 (j 0)) J1 0).val = (((rowGather wfG).operandIdx j J) 0).val
    rw [vecGather_row, rowGather_row]
    exact congrArg (fun x : BitVec 32 => min x.toInt.toNat (N - 1)) (hJ1 (j 0))
  have e2 : (vecGather wfV).operandIdx (ix1 (j 0)) J2 = ix1 (i 0) := by
    funext a
    obtain rfl : a = 0 := Subsingleton.elim _ _
    apply Fin.ext
    show ((vecGather wfV).operandIdx (ix1 (j 0)) J2 0).val = (i 0).val
    rw [vecGather_row]
    have h2 := hJ2 (j 0)
    have hw := wrap_of_lands (I (ix2 (j 0) (0 : Fin 1))) nn (i 0).val hl
    refine (congrArg (fun x : BitVec 32 => min x.toInt.toNat (N - 1)) (h2.trans hw)).trans ?_
    exact clamp_of_lands _ _ (i 0).isLt hl
  rw [e1, e2]
  ac_rfl

end Cert.GcnCore

end
-- ==== Proof.LibHostReads.lean ====
/-
  Host operations read at an index, for tables of any size, at the ideal values.

  Laying out: a vector of n entries placed along axis 1 of a one-row table reads, at (u, j), its entry j; a one-column
  table repeated along n columns reads, at (r, t), the column's entry r.

  A plain product: the host's product of an m × n table with an n × p table, whose dimension record has one contracted
  axis of extent n, rows free on the left and columns free on the right (the record's coordinate facts, bundled as
  `PlainDot`), reads at (a, b) the sum over k of l(a, k) · r(k, b). No finiteness is assumed.
-/
import proofs.«139083_j66958540144842_2_alg».proof.Proof.LibDot
import Idealize.ShloMosaic.Lib.IdealHost

noncomputable section

open scoped BigOperators

namespace Cert.LibHostReads

open Idealize.ShloMosaic Idealize.ShloMosaic.ValueIdx

section Reads
variable {α : Type}

/-- A vector of n entries laid along axis 1 of a one-row table reads, at (u, j), its entry j. -/
theorem bcast_row_apply {n : Nat} (hd : (⟨1, ![n]⟩ : Shape).BroadcastsInDim ⟨2, ![1, n]⟩ ![1])
    (x : (⟨1, ![n]⟩ : Shape).Idx → α) (u : Fin 1) (j : Fin n) :
    broadcastInDim ⟨2, ![1, n]⟩ ![1] hd x (ix2 u j) = x (ix1 j) := by
  refine broadcastInDim_apply ![1] hd x (ix2 u j) (ix1 j) ?_
  intro a
  match a with
  | ⟨0, _⟩ =>
    show j.val = if n = 1 then 0 else j.val
    split
    · have := j.isLt; omega
    · rfl

/-- A one-column table repeated along n columns reads, at (r, t), the column's entry r. -/
theorem bcast_col_apply {m n : Nat} (h : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] h y (ix2 r t) = y (ix2 r (0 : Fin 1)) := by
  refine broadcastInDim_apply ![0, 1] h y (ix2 r t) (ix2 r (0 : Fin 1)) ?_
  intro a
  match a with
  | ⟨0, _⟩ =>
    show r.val = if m = 1 then 0 else r.val
    split
    · have := r.isLt; omega
    · rfl
  | ⟨1, _⟩ =>
    show (0 : ℕ) = if (1 : ℕ) = 1 then 0 else t.val
    rw [if_pos rfl]

end Reads

/-- The coordinate facts of a plain [m, n] × [n, p] product's record: one contracted axis of extent n, the left index
    at output (a, b) and position q being (a, q), the right index (q, b). -/
structure PlainDot {m n p : Nat} (d : DotDims ⟨2, ![m, n]⟩ ⟨2, ![n, p]⟩ ⟨2, ![m, p]⟩) : Prop where
  rank : d.contr.rank = 1
  size : d.contr.size ⟨0, by omega⟩ = n
  l0 : ∀ (i : (⟨2, ![m, p]⟩ : Shape).Idx) (q : d.contr.Idx), (d.lhsIdx i q 0).val = (i 0).val
  l1 : ∀ (i : (⟨2, ![m, p]⟩ : Shape).Idx) (q : d.contr.Idx), (d.lhsIdx i q 1).val = (q ⟨0, by omega⟩).val
  r0 : ∀ (i : (⟨2, ![m, p]⟩ : Shape).Idx) (q : d.contr.Idx), (d.rhsIdx i q 0).val = (q ⟨0, by omega⟩).val
  r1 : ∀ (i : (⟨2, ![m, p]⟩ : Shape).Idx) (q : d.contr.Idx), (d.rhsIdx i q 1).val = (i 1).val

/-- A plain product on the host read at (a, b): the sum over the shared coordinate. -/
theorem dot_apply {m n p : Nat} {d : DotDims ⟨2, ![m, n]⟩ ⟨2, ![n, p]⟩ ⟨2, ![m, p]⟩} (hd : PlainDot d)
    (l : (⟨2, ![m, n]⟩ : Shape).Idx → EReal) (r : (⟨2, ![n, p]⟩ : Shape).Idx → EReal) (a : Fin m) (b : Fin p) :
    Host.dotGeneral (F := Ideal) (φ₁ := .f32) (φ₂ := .f32) d none l r (ix2 a b) = ∑ k : Fin n, l (ix2 a k) * r (ix2 k b) :=
  (Ideal.dotGeneral_apply d none _ l r (ix2 a b)).trans
    (Cert.Sage.LibDot.sum_plain d hd.rank hd.size hd.l0 hd.l1 hd.r0 hd.r1 l r a b)

end Cert.LibHostReads

end
-- ==== Proof.Bridge.lean ====
/-
  The two programs compute one function.

  Both programs build the same source and destination index arrays, weights and normalizers s. The kernel program
  computes  s(d) * (0 + sum over edges e landing on d of (h(src e, c) * s(src e)) * w(e)) + b(c),  the reference
  0 + sum over the same edges of h(src e, c) * ((s(src e) * w(e)) * s(dst e)) + b(c),  with h = x W the plain product,
  the same sum over k < 512 on both sides. An edge that lands on row d has destination index d, so its s(dst e) is
  s(d); s(d) is a nonnegative extended real other than +infinity, so it multiplies through the sum; the rest is
  commutativity and associativity of the product. No finiteness of the inputs is used.

  Every stage is first unfolded as a whole array; arrays whose entries are sums over all edges (the degrees) are then
  replaced by variables before anything is read at an index.
-/
import proofs.«139083_j66958540144842_2_alg».proof.Proof.KernelRun
import proofs.«139083_j66958540144842_2_alg».proof.Proof.LibGcnCore
import proofs.«139083_j66958540144842_2_alg».proof.Proof.LibHostReads
import proofs.«139083_j66958540144842_2_alg».proof.Proof.Gen.ReferenceIdeal.Read

set_option maxRecDepth 16384

noncomputable section

open scoped BigOperators

namespace Cert.Bridge

open Idealize.ShloMosaic Idealize.ShloMosaic.ValueIdx Cert.GcnIndex
open Cert.ReferenceIdeal.Read

/-- A vector laid out as one column reads, at (r, 0), its entry r. -/
theorem col_of_vec {α : Type} {N : Nat} (hN : N ≠ 1) (h : (⟨1, ![N]⟩ : Shape).BroadcastsInDim ⟨2, ![N, 1]⟩ ![0])
    (y : (⟨1, ![N]⟩ : Shape).Idx → α) (r : Fin N) (z : Fin 1) :
    broadcastInDim ⟨2, ![N, 1]⟩ ![0] h y (ix2 r z) = y (ix1 r) := by
  refine broadcastInDim_apply ![0] h y (ix2 r z) (ix1 r) ?_
  intro a
  match a with
  | ⟨0, _⟩ => show r.val = if N = 1 then 0 else r.val; rw [if_neg hN]

/-- A column repeated along C channels, itself a vector laid out as a column: at (r, c) the vector's entry r. -/
theorem chan_of_vec {α : Type} {N C : Nat} (hN : N ≠ 1) (h1 : (⟨1, ![N]⟩ : Shape).BroadcastsInDim ⟨2, ![N, 1]⟩ ![0])
    (h2 : (⟨2, ![N, 1]⟩ : Shape).BroadcastsInDim ⟨2, ![N, C]⟩ ![0, 1]) (y : (⟨1, ![N]⟩ : Shape).Idx → α)
    (j : (⟨2, ![N, C]⟩ : Shape).Idx) :
    broadcastInDim ⟨2, ![N, C]⟩ ![0, 1] h2 (broadcastInDim ⟨2, ![N, 1]⟩ ![0] h1 y) j = y (ix1 (j 0)) := by
  have h : broadcastInDim ⟨2, ![N, C]⟩ ![0, 1] h2 (broadcastInDim ⟨2, ![N, 1]⟩ ![0] h1 y)
      (ix2 (⟨(j 0).val, (j 0).isLt⟩ : Fin N) (⟨(j 1).val, (j 1).isLt⟩ : Fin C)) = y (ix1 (⟨(j 0).val, (j 0).isLt⟩ : Fin N)) :=
    (Cert.LibHostReads.bcast_col_apply (m := N) (n := C) h2 _ _ _).trans (col_of_vec hN h1 y _ _)
  exact (congrArg _ (eq_ix2 (n0 := N) (n1 := C) j)).trans h

variable (x0 : (⟨2, ![100000, 512]⟩ : Shape).Idx → EReal) (x1 : (⟨2, ![2, 3200000]⟩ : Shape).Idx → BitVec 32)
  (x2 : (⟨1, ![3200000]⟩ : Shape).Idx → EReal) (x3 : (⟨2, ![512, 16]⟩ : Shape).Idx → EReal)
  (x4 : (⟨1, ![16]⟩ : Shape).Idx → EReal)

/-! ## The reference's arrays, as plain tables of extended reals -/

/-- The normalizers. -/
abbrev DISv : (⟨1, ![100000]⟩ : Shape).Idx → EReal := val_main_v17 (F := Ideal) x1 x2
/-- The plain product x W. -/
abbrev Hv : (⟨2, ![100000, 16]⟩ : Shape).Idx → EReal := val_main_v34 (F := Ideal) x0 x3
/-- The edge weights, the self loops' ones appended. -/
abbrev WFv : (⟨1, ![3300000]⟩ : Shape).Idx → EReal := val_main_v8 (F := Ideal) x2
/-- The reference's per-edge factor repeated along the channels. -/
abbrev NBv : (⟨2, ![3300000, 16]⟩ : Shape).Idx → EReal := val_main_v43 (F := Ideal) x1 x2

/-! ## The normalizers -/

/-- The normalizers as one array expression of the degrees. -/
theorem norm_form : (val_main_v17 (F := Ideal) x1 x2 : (⟨1, ![100000]⟩ : Shape).Idx → EReal)
    = select (cmpf (F := Ideal) (φ := .f32) .ogt (val_main_v11 (F := Ideal) x1 x2) (val_main_v12 (F := Ideal)))
        (Host.rsqrt (F := Ideal) (φ := .f32) (maximumf (F := Ideal) (φ := .f32) (val_main_v11 (F := Ideal) x1 x2) (val_main_v14 (F := Ideal))))
        (val_main_call0_v1 (F := Ideal)) := rfl

/-- Whatever the degrees D are, that expression's entries are nonnegative and never +infinity. -/
theorem norm_bounds_of (D : (⟨1, ![100000]⟩ : Shape).Idx → EReal) (n : (⟨1, ![100000]⟩ : Shape).Idx) :
    0 ≤ select (cmpf (F := Ideal) (φ := .f32) .ogt D (val_main_v12 (F := Ideal)))
          (Host.rsqrt (F := Ideal) (φ := .f32) (maximumf (F := Ideal) (φ := .f32) D (val_main_v14 (F := Ideal)))) (val_main_call0_v1 (F := Ideal)) n
      ∧ select (cmpf (F := Ideal) (φ := .f32) .ogt D (val_main_v12 (F := Ideal)))
          (Host.rsqrt (F := Ideal) (φ := .f32) (maximumf (F := Ideal) (φ := .f32) D (val_main_v14 (F := Ideal)))) (val_main_call0_v1 (F := Ideal)) n ≠ ⊤ := by
  show 0 ≤ Scalar.select (Ideal.cmp .ogt (D n) (Ideal.ofBits .f32 0x00000000#32))
        (Ideal.rsqrt (max (D n) (val_main_v14 (F := Ideal) n))) (Ideal.ofBits .f32 0x00000000#32)
      ∧ Scalar.select (Ideal.cmp .ogt (D n) (Ideal.ofBits .f32 0x00000000#32))
        (Ideal.rsqrt (max (D n) (val_main_v14 (F := Ideal) n))) (Ideal.ofBits .f32 0x00000000#32) ≠ ⊤
  rw [Ideal.ofBits_zero_f32]
  exact Cert.GcnSpec.normalizer_bounds _ _

theorem dis_bounds (n : (⟨1, ![100000]⟩ : Shape).Idx) : 0 ≤ DISv x1 x2 n ∧ DISv x1 x2 n ≠ ⊤ := by
  show 0 ≤ (val_main_v17 (F := Ideal) x1 x2 : (⟨1, ![100000]⟩ : Shape).Idx → EReal) n
    ∧ (val_main_v17 (F := Ideal) x1 x2 : (⟨1, ![100000]⟩ : Shape).Idx → EReal) n ≠ ⊤
  rw [norm_form]
  exact norm_bounds_of _ n

/-! ## The region's output -/

/-- The plain product's entry as a sum over the 512 shared positions. -/
theorem h_sum (p : (⟨2, ![100000, 16]⟩ : Shape).Idx) :
    Hv x0 x3 p = ∑ k : Fin 512, x0 (ix2 (⟨(p 0).val, (p 0).isLt⟩ : Fin 100000) k) * x3 (ix2 k (⟨(p 1).val, (p 1).isLt⟩ : Fin 16)) := by
  show val_main_v34 (F := Ideal) x0 x3 p = _
  rw [val_main_v34_apply]
  refine Finset.sum_congr rfl fun k _ => congrArg₂ (· * ·) (congrArg x0 ?_) (congrArg x3 ?_)
  · funext a; match a with
    | ⟨0, _⟩ => rfl
    | ⟨1, _⟩ => rfl
  · funext a; match a with
    | ⟨0, _⟩ => rfl
    | ⟨1, _⟩ => rfl

/-- The scaled product over any table H with those entries and any normalizer array s: H's entry times s at the row. -/
theorem scaled_apply_gen (H : (⟨2, ![100000, 16]⟩ : Shape).Idx → EReal)
    (hH : ∀ p : (⟨2, ![100000, 16]⟩ : Shape).Idx, H p
      = ∑ k : Fin 512, x0 (ix2 (⟨(p 0).val, (p 0).isLt⟩ : Fin 100000) k) * x3 (ix2 k (⟨(p 1).val, (p 1).isLt⟩ : Fin 16)))
    (s : (⟨1, ![100000]⟩ : Shape).Idx → EReal) (p : (⟨2, ![100000, 16]⟩ : Shape).Idx) :
    Cert.KernelIdeal.Region.scaled x0 x3 (broadcastInDim Cert.KernelIdeal.S100000x1 ![0] Cert.KernelIdeal.Gen.bcast_S100000_S100000x1_0 s) p = H p * s (ix1 (p 0)) := by
  have hc : broadcastInDim Cert.KernelIdeal.S100000x1 ![0] Cert.KernelIdeal.Gen.bcast_S100000_S100000x1_0 s
      (ix2 (⟨(p 0).val, (p 0).isLt⟩ : Fin 100000) (0 : Fin 1)) = s (ix1 (p 0)) :=
    col_of_vec (by decide) _ _ _ _
  rw [hH]
  unfold Cert.KernelIdeal.Region.scaled
  rw [hc]

/-! ## The kernel program's index arrays and layouts, in its own spelling -/

/-- The zero table the messages are summed into. -/
abbrev ZK : (⟨2, ![100000, 16]⟩ : Shape).Idx → EReal :=
  broadcastInDim Cert.KernelIdeal.S100000x16 ![] Cert.KernelIdeal.Gen.bcast_S_S100000x16 (constant (F := Ideal) Cert.KernelIdeal.S_ .f32 0x00000000#32)
/-- The destination indices as a column. -/
abbrev IK : IVec ⟨2, ![3300000, 1]⟩ 32 := (broadcastInDim Cert.KernelIdeal.S3300000x1 ![0] Cert.KernelIdeal.Gen.bcast_S3300000_S3300000x1_0 (val_main_v6 (F := Ideal) x1))
/-- The wrapped source indices as a column. -/
abbrev JK : IVec ⟨2, ![3300000, 1]⟩ 32 :=
  broadcastInDim Cert.KernelIdeal.S3300000x1 ![0] Cert.KernelIdeal.Gen.bcast_S3300000_S3300000x1_0
    (select (cmpi .slt (val_main_v5 (F := Ideal) x1) (broadcastInDim Cert.KernelIdeal.S3300000 ![] Cert.KernelIdeal.Gen.bcast_S_S3300000 (constantI Cert.KernelIdeal.S_ 32 0#32)))
      (addi (val_main_v5 (F := Ideal) x1) (broadcastInDim Cert.KernelIdeal.S3300000 ![] Cert.KernelIdeal.Gen.bcast_S_S3300000 (constantI Cert.KernelIdeal.S_ 32 100000#32)))
      (val_main_v5 (F := Ideal) x1))
/-- The weights repeated along the channels. -/
abbrev WBK : (⟨2, ![3300000, 16]⟩ : Shape).Idx → EReal :=
  broadcastInDim Cert.KernelIdeal.S3300000x16 ![0, 1] Cert.KernelIdeal.Gen.bcast_S3300000x1_S3300000x16_0_1 (broadcastInDim Cert.KernelIdeal.S3300000x1 ![0] Cert.KernelIdeal.Gen.bcast_S3300000_S3300000x1_0 (val_main_v8 (F := Ideal) x2))

theorem zk_zero (i : (⟨2, ![100000, 16]⟩ : Shape).Idx) : ZK i = 0 := by
  show Ideal.ofBits .f32 0x00000000#32 = 0
  exact Ideal.ofBits_zero_f32

/-- The reference's first wrapped-source column is the kernel program's. -/
theorem src_cols (e : Fin 3300000) : val_main_v23 (F := Ideal) x1 (ix2 e (0 : Fin 1)) = JK x1 (ix2 e (0 : Fin 1)) :=
  congrFun (show val_main_v23 (F := Ideal) x1 = JK x1 from rfl) _

/-- Over any destination index array Y: the wrapped indices' column reads the wrap of the plain column's entry. -/
theorem dst_cols_of (Y : (⟨1, ![3300000]⟩ : Shape).Idx → BitVec 32) (e : Fin 3300000) :
    (broadcastInDim Cert.ReferenceIdeal.S3300000x1 ![0] Cert.ReferenceIdeal.Gen.bcast_S3300000_S3300000x1_0 (select (cmpi .slt Y (val_main_v26 (F := Ideal))) (addi Y (val_main_v28 (F := Ideal))) Y)) (ix2 e (0 : Fin 1))
      = Scalar.select (IntOp.cmpi .slt ((broadcastInDim Cert.KernelIdeal.S3300000x1 ![0] Cert.KernelIdeal.Gen.bcast_S3300000_S3300000x1_0 Y) (ix2 e (0 : Fin 1))) 0#32)
          (IntOp.addi ((broadcastInDim Cert.KernelIdeal.S3300000x1 ![0] Cert.KernelIdeal.Gen.bcast_S3300000_S3300000x1_0 Y) (ix2 e (0 : Fin 1))) 100000#32) ((broadcastInDim Cert.KernelIdeal.S3300000x1 ![0] Cert.KernelIdeal.Gen.bcast_S3300000_S3300000x1_0 Y) (ix2 e (0 : Fin 1))) := by
  have h1 : (broadcastInDim Cert.KernelIdeal.S3300000x1 ![0] Cert.KernelIdeal.Gen.bcast_S3300000_S3300000x1_0 Y) (ix2 e (0 : Fin 1)) = Y (ix1 e) := col_of_vec (by decide) _ _ _ _
  have h2 : (broadcastInDim Cert.ReferenceIdeal.S3300000x1 ![0] Cert.ReferenceIdeal.Gen.bcast_S3300000_S3300000x1_0 (select (cmpi .slt Y (val_main_v26 (F := Ideal))) (addi Y (val_main_v28 (F := Ideal))) Y)) (ix2 e (0 : Fin 1))
      = select (cmpi .slt Y (val_main_v26 (F := Ideal))) (addi Y (val_main_v28 (F := Ideal))) Y (ix1 e) := col_of_vec (by decide) _ _ _ _
  rw [h1, h2]
  rfl

theorem dst_cols (e : Fin 3300000) : val_main_v31 (F := Ideal) x1 (ix2 e (0 : Fin 1))
    = Scalar.select (IntOp.cmpi .slt (IK x1 (ix2 e (0 : Fin 1))) 0#32) (IntOp.addi (IK x1 (ix2 e (0 : Fin 1))) 100000#32)
        (IK x1 (ix2 e (0 : Fin 1))) := by
  have h : val_main_v31 (F := Ideal) x1
      = (broadcastInDim Cert.ReferenceIdeal.S3300000x1 ![0] Cert.ReferenceIdeal.Gen.bcast_S3300000_S3300000x1_0 (select (cmpi .slt (val_main_v6 (F := Ideal) x1) (val_main_v26 (F := Ideal))) (addi (val_main_v6 (F := Ideal) x1) (val_main_v28 (F := Ideal))) (val_main_v6 (F := Ideal) x1))) := rfl
  rw [h]
  exact dst_cols_of _ e

/-- The repeated weights read, at (e, c), the weight of edge e. -/
theorem w_cols (j : (⟨2, ![3300000, 16]⟩ : Shape).Idx) : WBK x2 j = WFv x2 (ix1 (j 0)) :=
  chan_of_vec (by decide) _ _ _ j

/-- Over any three edge arrays: their product, laid out as a column and repeated along the channels, reads at (e, c)
    the product of their entries at e. -/
theorem norm_cols_of (G1 W G2 : (⟨1, ![3300000]⟩ : Shape).Idx → EReal) (j : (⟨2, ![3300000, 16]⟩ : Shape).Idx) :
    (broadcastInDim Cert.ReferenceIdeal.S3300000x16 ![0, 1] Cert.ReferenceIdeal.Gen.bcast_S3300000x1_S3300000x16_0_1 (broadcastInDim Cert.ReferenceIdeal.S3300000x1 ![0] Cert.ReferenceIdeal.Gen.bcast_S3300000_S3300000x1_0 (mulf (F := Ideal) (φ := .f32) (mulf (F := Ideal) (φ := .f32) G1 W) G2))) j
      = (G1 (ix1 (j 0)) * W (ix1 (j 0))) * G2 (ix1 (j 0)) :=
  chan_of_vec (by decide) _ _ _ j

/-- The reference's two gathers of the normalizers, over the vector gather's record. -/
theorem v24_form : (val_main_v24 (F := Ideal) x1 x2 : (⟨1, ![3300000]⟩ : Shape).Idx → EReal) = (Host.gather (vecGather Cert.ReferenceIdeal.Gen.gather_S100000_S3300000x1_S3300000_n_0_n_n_0_1_1_wf) (val_main_v17 (F := Ideal) x1 x2) (val_main_v23 (F := Ideal) x1)) := rfl
theorem v32_form : (val_main_v32 (F := Ideal) x1 x2 : (⟨1, ![3300000]⟩ : Shape).Idx → EReal) = (Host.gather (vecGather Cert.ReferenceIdeal.Gen.gather_S100000_S3300000x1_S3300000_n_0_n_n_0_1_1_wf) (val_main_v17 (F := Ideal) x1 x2) (val_main_v31 (F := Ideal) x1)) := rfl

/-- The reference's per-edge factor as one array expression. -/
theorem v43_form : (val_main_v43 (F := Ideal) x1 x2 : (⟨2, ![3300000, 16]⟩ : Shape).Idx → EReal)
    = (broadcastInDim Cert.ReferenceIdeal.S3300000x16 ![0, 1] Cert.ReferenceIdeal.Gen.bcast_S3300000x1_S3300000x16_0_1 (broadcastInDim Cert.ReferenceIdeal.S3300000x1 ![0] Cert.ReferenceIdeal.Gen.bcast_S3300000_S3300000x1_0 (mulf (F := Ideal) (φ := .f32) (mulf (F := Ideal) (φ := .f32) (val_main_v24 (F := Ideal) x1 x2) (val_main_v8 (F := Ideal) x2)) (val_main_v32 (F := Ideal) x1 x2)))) := rfl

/-- The reference's per-edge factor repeated along the channels: both normalizers around the weight. -/
theorem norm_cols (j : (⟨2, ![3300000, 16]⟩ : Shape).Idx) : NBv x1 x2 j
    = (Host.gather (vecGather Cert.ReferenceIdeal.Gen.gather_S100000_S3300000x1_S3300000_n_0_n_n_0_1_1_wf) (DISv x1 x2) (val_main_v23 (F := Ideal) x1) (ix1 (j 0)) * WFv x2 (ix1 (j 0)))
      * Host.gather (vecGather Cert.ReferenceIdeal.Gen.gather_S100000_S3300000x1_S3300000_n_0_n_n_0_1_1_wf) (DISv x1 x2) (val_main_v31 (F := Ideal) x1) (ix1 (j 0)) := by
  show (val_main_v43 (F := Ideal) x1 x2 : (⟨2, ![3300000, 16]⟩ : Shape).Idx → EReal) j = _
  rw [v43_form, norm_cols_of, v24_form, v32_form]

/-! ## The two results -/

/-- The kernel program's result as one array expression over the core identity's records. -/
theorem kernel_form : Cert.KernelIdeal.Tail.result x0 x1 x2 x3 x4
    = addf (F := Ideal) (φ := .f32)
        (mulf (F := Ideal) (φ := .f32)
          (broadcastInDim Cert.KernelIdeal.S100000x16 ![0, 1] Cert.KernelIdeal.Gen.bcast_S100000x1_S100000x16_0_1
            (broadcastInDim Cert.KernelIdeal.S100000x1 ![0] Cert.KernelIdeal.Gen.bcast_S100000_S100000x1_0 (val_main_v17 (F := Ideal) x1 x2)))
          (Host.scatterAdd (F := Ideal) (φ := .f32) (rowScatter Cert.KernelIdeal.Gen.scatter_S100000x16_S3300000x1_S3300000x16_1_0_0_1_wf) ZK (IK x1)
            (mulf (F := Ideal) (φ := .f32) (Host.gather (rowGather Cert.KernelIdeal.Gen.gather_S100000x16_S3300000x1_S3300000x16_1_0_n_n_0_1_116_wf) (Cert.KernelIdeal.Region.scaled x0 x3 (broadcastInDim Cert.KernelIdeal.S100000x1 ![0] Cert.KernelIdeal.Gen.bcast_S100000_S100000x1_0 (val_main_v17 (F := Ideal) x1 x2))) (JK x1)) (WBK x2))))
        (val_main_v49 (F := Ideal) x4) := rfl

/-- The reference's result likewise. -/
theorem reference_form : val_main_v50 (F := Ideal) x0 x1 x2 x3 x4
    = addf (F := Ideal) (φ := .f32)
        (Host.scatterAdd (F := Ideal) (φ := .f32) (rowScatter Cert.KernelIdeal.Gen.scatter_S100000x16_S3300000x1_S3300000x16_1_0_0_1_wf) ZK (IK x1)
          (mulf (F := Ideal) (φ := .f32) (Host.gather (rowGather Cert.KernelIdeal.Gen.gather_S100000x16_S3300000x1_S3300000x16_1_0_n_n_0_1_116_wf) (val_main_v34 (F := Ideal) x0 x3) (JK x1))
            (val_main_v43 (F := Ideal) x1 x2)))
        (val_main_v49 (F := Ideal) x4) := rfl

set_option maxHeartbeats 2000000 in
/-- The kernel program's result is the reference's, as functions of the five argument arrays. -/
theorem result_eq : Cert.KernelIdeal.Tail.result x0 x1 x2 x3 x4 = val_main_v50 (F := Ideal) x0 x1 x2 x3 x4 := by
  rw [kernel_form, reference_form]
  funext i
  have hO : ∀ p : (⟨2, ![100000, 16]⟩ : Shape).Idx, (Cert.KernelIdeal.Region.scaled x0 x3 (broadcastInDim Cert.KernelIdeal.S100000x1 ![0] Cert.KernelIdeal.Gen.bcast_S100000_S100000x1_0 (val_main_v17 (F := Ideal) x1 x2))) p = Hv x0 x3 p * DISv x1 x2 (ix1 (p 0)) :=
    fun p => scaled_apply_gen x0 x3 (Hv x0 x3) (h_sum x0 x3) (val_main_v17 (F := Ideal) x1 x2) p
  have key0 := Cert.GcnCore.agg (N := 100000) (E := 3300000) (C := 16) Cert.KernelIdeal.Gen.scatter_S100000x16_S3300000x1_S3300000x16_1_0_0_1_wf Cert.KernelIdeal.Gen.gather_S100000x16_S3300000x1_S3300000x16_1_0_n_n_0_1_116_wf Cert.ReferenceIdeal.Gen.gather_S100000_S3300000x1_S3300000_n_0_n_n_0_1_1_wf
    (DISv x1 x2) (dis_bounds x1 x2) (Hv x0 x3) (Cert.KernelIdeal.Region.scaled x0 x3 (broadcastInDim Cert.KernelIdeal.S100000x1 ![0] Cert.KernelIdeal.Gen.bcast_S100000_S100000x1_0 (val_main_v17 (F := Ideal) x1 x2)))
  have key1 := key0 hO ZK zk_zero (IK x1) (JK x1) (val_main_v23 (F := Ideal) x1) (val_main_v31 (F := Ideal) x1) 100000#32
  have key2 := key1 (src_cols x1) (dst_cols x1) (WFv x2) (WBK x2) (NBv x1 x2)
  have key := key2 (w_cols x2) (norm_cols x1 x2) i
  have hd : broadcastInDim Cert.KernelIdeal.S100000x16 ![0, 1] Cert.KernelIdeal.Gen.bcast_S100000x1_S100000x16_0_1
      (broadcastInDim Cert.KernelIdeal.S100000x1 ![0] Cert.KernelIdeal.Gen.bcast_S100000_S100000x1_0 (val_main_v17 (F := Ideal) x1 x2)) i = (val_main_v17 (F := Ideal) x1 x2) (ix1 (i 0)) :=
    chan_of_vec (by decide) _ _ _ i
  rw [addf_apply, addf_apply, mulf_apply, hd, key]

end Cert.Bridge

end
-- ==== Proof.lean ====
/-
  A graph-convolution layer, two ways.

  N = 100000 nodes with 512 features each, E = 3200000 weighted edges and one self loop of weight 1 per node, a 512 x 16
  weight table W and a bias b. With deg(d) the sum of the weights of the edges into d and the normalizer
      s(d) = 1 / sqrt(max(deg(d), c))  where deg(d) > 0,   s(d) = 0  elsewhere   (c one fixed small constant),
  the reference computes
      out(d, :) = sum over the edges e into d of (x W)(src e, :) * ((s(src e) * w(e)) * s(dst e)) + b,
  while the kernel program has its grid kernel compute the scaled product  P(n, :) = (x W)(n, :) * s(n)  block of 5000
  rows by block, and then, on the host,
      out(d, :) = s(d) * ( sum over the edges e into d of P(src e, :) * w(e) ) + b.
  Indices are 32-bit integers: a source index is wrapped when negative and clamped into the table by the gather; an edge
  whose destination index is outside the table is dropped by the accumulating scatter, on both sides alike.

  Read over the extended reals the two are one function of the five argument arrays. An edge that lands on row d has
  destination index exactly d, so the reference's s(dst e) is s(d); s(d) is a nonnegative extended real other than
  +infinity whatever the degree is (where deg > 0 the maximum is positive, and the reciprocal square root of a positive
  extended real is a nonnegative real), and such a number multiplies through a finite sum with no finiteness asked of the
  summands; what remains is commutativity and associativity of the product. The precondition is never opened.

  Modules: LibGcnSpec (the algebra), LibRowIndex (where a row gather reads and a row scatter lands), LibGcnCore (the identity
  for arrays), LibDot and LibHostReads (a plain product's entry as a sum; layouts read at an index),
  KernelBlock / KernelArray (the region's output is the scaled product), KernelTail / KernelRun (the host lines around the
  region; the program's result), Bridge (the two results are one function). The ideal pass rewrote nothing, so the
  idealized kernel is the kernel's own text read at the ideal values.
-/
import proofs.«139083_j66958540144842_2_alg».proof.Defs
import proofs.«139083_j66958540144842_2_alg».proof.Proof.Gen.Kernel
import proofs.«139083_j66958540144842_2_alg».proof.Proof.Gen.Kernel.Skeleton
import proofs.«139083_j66958540144842_2_alg».proof.Proof.Gen.Kernel.Launch
import proofs.«139083_j66958540144842_2_alg».proof.Proof.Gen.Kernel.Points
import proofs.«139083_j66958540144842_2_alg».proof.Proof.Gen.Kernel.Frame
import proofs.«139083_j66958540144842_2_alg».proof.Proof.Gen.KernelIdeal
import proofs.«139083_j66958540144842_2_alg».proof.Proof.Gen.KernelIdeal.Skeleton
import proofs.«139083_j66958540144842_2_alg».proof.Proof.Gen.KernelIdeal.Launch
import proofs.«139083_j66958540144842_2_alg».proof.Proof.Gen.KernelIdeal.Points
import proofs.«139083_j66958540144842_2_alg».proof.Proof.Gen.KernelIdeal.Frame
import proofs.«139083_j66958540144842_2_alg».proof.Proof.Gen.ReferenceIdeal
import proofs.«139083_j66958540144842_2_alg».proof.Proof.Gen.ReferenceIdeal.Run
import proofs.«139083_j66958540144842_2_alg».proof.Proof.Gen.ReferenceIdeal.Read
import proofs.«139083_j66958540144842_2_alg».proof.Proof.Gen.Pre_finite_inputs
import proofs.«139083_j66958540144842_2_alg».proof.Proof.Bridge
import Idealize.ShloMosaic.Adequacy
import Idealize.ShloMosaic.Init

noncomputable section

namespace Cert.Proof

open Idealize.ShloMosaic Idealize.ShloMosaic.TcCoe Idealize.SL.Sem

/-- The kernel program runs and leaves its arguments as they were. -/
theorem frame_kernel : Cert.frame_Kernel := fun m ρ _ => Cert.Kernel.Gen.frame m ρ

/-- So does its reading at the ideal values. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten on the way to the ideal reading. -/
theorem preserves : Cert.preserves_Kernel_KernelIdeal := trivial

/-- From memories agreeing on the five arguments both programs end with the same 100000 x 16 table: the kernel program
    at its result, the reference at its last stage, and the two are one function of the arguments. -/
theorem algebraic : Cert.algebraic_KernelIdeal_ReferenceIdeal := by
  intro m ρ m' ρ' _ hagree
  refine ⟨_, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.1, (hagree c).2.2.2.1,
    (hagree c).2.2.2.2]
  exact (Cert.Bridge.result_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
